-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S64x64 : Shape := ⟨2, ![64, 64]⟩
abbrev S_ : Shape := ⟨0, ![]⟩
abbrev S64x64x64x64 : Shape := ⟨4, ![64, 64, 64, 64]⟩

class Facts : Prop where
  slices_S4096x4096_S64x64_0_0 : S4096x4096.Slices ![0, 0] S64x64
  bcast_S_S64x64 : S_.BroadcastsInDim S64x64 (![] : Fin 0 → Fin S64x64.rank)
  bcast_S64x64_S64x64x64x64_0_2 : S64x64.BroadcastsInDim S64x64x64x64 (![0, 2] : Fin 2 → Fin S64x64x64x64.rank)
  bcast_S64x64_S64x64x64x64_1_3 : S64x64.BroadcastsInDim S64x64x64x64 (![1, 3] : Fin 2 → Fin S64x64x64x64.rank)
  shapeCasts_S4096x4096_S64x64x64x64 : S4096x4096.ShapeCasts S64x64x64x64
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  reducesTo_S64x64_S_d0_1 : S64x64.ReducesTo [0, 1] S_
  bcast_S_S64x64x64x64 : S_.BroadcastsInDim S64x64x64x64 (![] : Fin 0 → Fin S64x64x64x64.rank)
  reducesTo_S64x64x64x64_S_d0_1_2_3 : S64x64x64x64.ReducesTo [0, 1, 2, 3] S_

variable [Facts]

def fn_part1 {F : FTy → Type} [FloatOps F] (main_arg1 : FVec F S4096x4096 .f32) (main_v0 : FVec F S64x64 .f32) (main_v11 : FVec F S64x64 .f32) (main_v12 : FVec F S64x64x64x64 .f32) (main_v13 : FVec F S64x64x64x64 .f32) (main_v14 : FVec F S64x64x64x64 .f32) (main_v17 : IVec S8192x4096 1) (main_c_3 : IVec S_ 1) : IVec S_ 1 :=
  let main_v18 : IVec S_ 1 := (fun x v => Host.reduce IntOp.andi x v reducesTo_S8192x4096_S_d0_1 h_S_) main_v17 main_c_3
  let main_v19 : FVec F S4096x4096 .f32 := Host.absf main_arg1
  let main_cst_4 : FVec F S_ .f32 := constant S_ .f32 0x7F800000#32
  let main_v20 : FVec F S4096x4096 .f32 := broadcastInDim S4096x4096 ![] bcast_S_S4096x4096 main_cst_4
  let main_v21 : IVec S4096x4096 1 := cmpf .olt main_v19 main_v20
  let main_c_5 : IVec S_ 1 := constantI S_ 1 1#1
  let main_v22 : IVec S_ 1 := (fun x v => Host.reduce IntOp.andi x v reducesTo_S4096x4096_S_d0_1 h_S_) main_v21 main_c_5
  let main_v23 : IVec S_ 1 := andi main_v18 main_v22
  let main_v24 : IVec S64x64 1 := cmpf .oeq main_v0 main_v11
  let main_c_6 : IVec S_ 1 := constantI S_ 1 1#1
  let main_v25 : IVec S_ 1 := (fun x v => Host.reduce IntOp.andi x v reducesTo_S64x64_S_d0_1 h_S_) main_v24 main_c_6
  let main_v26 : IVec S_ 1 := andi main_v23 main_v25
  let main_cst_7 : FVec F S_ .f32 := constant S_ .f32 0x42800000#32
  let main_v27 : FVec F S64x64x64x64 .f32 := broadcastInDim S64x64x64x64 ![] bcast_S_S64x64x64x64 main_cst_7
  let main_v28 : FVec F S64x64x64x64 .f32 := mulf main_v27 main_v12
  let main_v29 : FVec F S64x64x64x64 .f32 := mulf main_v28 main_v13
  let main_v30 : IVec S64x64x64x64 1 := cmpf .oeq main_v14 main_v29
  let main_c_8 : IVec S_ 1 := constantI S_ 1 1#1
  let main_v31 : IVec S_ 1 := (fun x v => Host.reduce IntOp.andi x v reducesTo_S64x64x64x64_S_d0_1_2_3 h_S_) main_v30 main_c_8
  let main_v32 : IVec S_ 1 := andi main_v26 main_v31
  main_v32

def fn {F : FTy → Type} [FloatOps F] (main_arg0 : FVec F S8192x4096 .f32) (main_arg1 : FVec F S4096x4096 .f32) : IVec S_ 1 :=
  let main_v0 : FVec F S64x64 .f32 := (extractStridedSlice S64x64 ![0, 0] · slices_S4096x4096_S64x64_0_0) main_arg1
  let main_v1 : IVec S64x64 32 := iotaInDim S64x64 32 0
  let main_v2 : IVec S64x64 32 := iotaInDim S64x64 32 1
  let main_v3 : IVec S64x64 32 := andi main_v1 main_v2
  let main_v4 : IVec S64x64 32 := ctpop main_v3
  let main_c : IVec S_ 32 := constantI S_ 32 1#32
  let main_v5 : IVec S64x64 32 := broadcastInDim S64x64 ![] bcast_S_S64x64 main_c
  let main_v6 : IVec S64x64 32 := andi main_v4 main_v5
  let main_c_0 : IVec S_ 32 := constantI S_ 32 1#32
  let main_v7 : IVec S64x64 32 := broadcastInDim S64x64 ![] bcast_S_S64x64 main_c_0
  let main_v8 : IVec S64x64 1 := cmpi .eq main_v6 main_v7
  let main_cst : FVec F S_ .f32 := constant S_ .f32 0xBC800000#32
  let main_v9 : FVec F S64x64 .f32 := broadcastInDim S64x64 ![] bcast_S_S64x64 main_cst
  let main_cst_1 : FVec F S_ .f32 := constant S_ .f32 0x3C800000#32
  let main_v10 : FVec F S64x64 .f32 := broadcastInDim S64x64 ![] bcast_S_S64x64 main_cst_1
  let main_v11 : FVec F S64x64 .f32 := select main_v8 main_v9 main_v10
  let main_v12 : FVec F S64x64x64x64 .f32 := broadcastInDim S64x64x64x64 ![0, 2] bcast_S64x64_S64x64x64x64_0_2 main_v0
  let main_v13 : FVec F S64x64x64x64 .f32 := broadcastInDim S64x64x64x64 ![1, 3] bcast_S64x64_S64x64x64x64_1_3 main_v0
  let main_v14 : FVec F S64x64x64x64 .f32 := shapeCast S64x64x64x64 main_arg1 shapeCasts_S4096x4096_S64x64x64x64
  let main_v15 : FVec F S8192x4096 .f32 := Host.absf main_arg0
  let main_cst_2 : FVec F S_ .f32 := constant S_ .f32 0x7F800000#32
  let main_v16 : FVec F S8192x4096 .f32 := broadcastInDim S8192x4096 ![] bcast_S_S8192x4096 main_cst_2
  let main_v17 : IVec S8192x4096 1 := cmpf .olt main_v15 main_v16
  let main_c_3 : IVec S_ 1 := constantI S_ 1 1#1
  fn_part1 (F := F) main_arg1 main_v0 main_v11 main_v12 main_v13 main_v14 main_v17 main_c_3
-- ==== Kernel.lean ====
abbrev S8192x4096 : Shape := ⟨2, ![8192, 4096]⟩
abbrev S4096x4096 : Shape := ⟨2, ![4096, 4096]⟩
abbrev S64x64 : Shape := ⟨2, ![64, 64]⟩
abbrev S_ : Shape := ⟨0, ![]⟩
abbrev S8192x64x64 : Shape := ⟨3, ![8192, 64, 64]⟩
abbrev S128x64x64 : Shape := ⟨3, ![128, 64, 64]⟩
abbrev S8192x64 : Shape := ⟨2, ![8192, 64]⟩

abbrev nBuf : Space → Nat
  | .hbm => 10
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S64x64, .f32⟩
  | .hbm, ⟨3, _⟩ => ⟨S_, .f32⟩
  | .hbm, ⟨4, _⟩ => ⟨S64x64, .f32⟩
  | .hbm, ⟨5, _⟩ => ⟨S64x64, .f32⟩
  | .hbm, ⟨6, _⟩ => ⟨S64x64, .bf16⟩
  | .hbm, ⟨7, _⟩ => ⟨S8192x64x64, .f32⟩
  | .hbm, ⟨8, _⟩ => ⟨S8192x64x64, .f32⟩
  | .hbm, ⟨9, _⟩ => ⟨S8192x4096, .f32⟩
  | .local _ .vmem, ⟨0, _⟩ => ⟨S128x64x64, .f32⟩
  | .local _ .vmem, ⟨1, _⟩ => ⟨S128x64x64, .f32⟩
  | .local _ .vmem, ⟨2, _⟩ => ⟨S64x64, .bf16⟩
  | .local _ .vmem, ⟨3, _⟩ => ⟨S128x64x64, .f32⟩
  | .local _ .vmem, ⟨4, _⟩ => ⟨S128x64x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4096x4096_S64x64_0_0 : S4096x4096.Slices ![0, 0] S64x64
  bcast_S_S64x64 : S_.BroadcastsInDim S64x64 (![] : Fin 0 → Fin S64x64.rank)
  bitsLt_bf16_f32 : FTy.bits .bf16 < FTy.bits .f32
  shapeCasts_S8192x4096_S8192x64x64 : S8192x4096.ShapeCasts S8192x64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  shapeCasts_S128x64x64_S8192x64 : S128x64x64.ShapeCasts S8192x64
  shapeCasts_S8192x64_S128x64x64 : S8192x64.ShapeCasts S128x64x64
  transposes_S128x64x64_p0_2_1_S128x64x64 : S128x64x64.Transposes [0, 2, 1] S128x64x64
  shapeCasts_S8192x64x64_S8192x4096 : S8192x64x64.ShapeCasts S8192x4096
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64x64.size a ≤ S8192x64x64.size a
  hwx0_2 : ∀ i : grid0.Coords, EltTy.bits .f32 = 32 ∨ (Rect.block (s := S8192x64x64) S128x64x64.size (cc0_transform_2 i) (hinb0_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v4) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the Hadamard transform by Kronecker factors, over the extended reals.

  The order-4096 normalized Sylvester–Hadamard matrix H is the Kronecker square of the order-64 one: writing a
  position of 0..4095 as 64·a + b with a, b < 64,
      H[64a + b, 64c + d] = 64 · H[a, c] · H[b, d]
  (the corner H[a, c], a, c < 64, is 2⁻⁶ times a sign, and 8 times it is the normalized order-64 matrix). So a row
  x of 4096 entries, read as a 64 × 64 matrix x[i₁, i₂] = x[64 i₁ + i₂], is transformed by two small contractions:
      ∑ᵢ₁ (∑ᵢ₂ x[i₁, i₂] · (8 H[i₂, j₂])) · (8 H[i₁, j₁])  =  ∑ₖ x[k] · H[k, 64 j₁ + j₂].
  The identity moves factors across sums (distributivity), which on the extended reals needs every entry finite:
  the proof chooses real witnesses, computes in ℝ, and carries the result back.
-/
import Idealize.ShloMosaic.PureOps.Ideal
import Idealize.ShloMosaic.Lib.ValueIdx

noncomputable section

namespace Cert.Hadamard

open Idealize.ShloMosaic

/-- The position 64·a + b of 0..4095. -/
def pos (a b : Fin 64) : Fin 4096 := ⟨64 * a.val + b.val, by omega⟩
/-- A position below 64, among 0..4095. -/
def low (a : Fin 64) : Fin 4096 := ⟨a.val, by omega⟩

/-- The f32 word of 8.0 denotes the real 8. -/
theorem ofBits_eight : Ideal.ofBits .f32 0x41000000#32 = ((8 : ℝ) : EReal) := by
  simp [Ideal.ofBits, Ideal.ieee, -EReal.coe_mul]; norm_num

/-- The f32 word of 64.0 denotes the real 64. -/
theorem ofBits_sixtyfour : Ideal.ofBits .f32 0x42800000#32 = ((64 : ℝ) : EReal) := by
  simp [Ideal.ofBits, Ideal.ieee, -EReal.coe_mul]; norm_num

/-- The inclusion of ℝ in the extended reals commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over the positions 0..4095 is the double sum over (a, b) of the term at 64·a + b. -/
theorem sum_pos (f : Fin 4096 → ℝ) : ∑ k, f k = ∑ a : Fin 64, ∑ b : Fin 64, f (pos a b) := by
  rw [← Fintype.sum_prod_type' (fun a b => f (pos a b))]
  refine (Fintype.sum_equiv (finProdFinEquiv : Fin 64 × Fin 64 ≃ Fin 4096) _ _ ?_).symm
  intro p
  refine congrArg f (Fin.ext ?_)
  show 64 * p.1.val + p.2.val = p.2.val + 64 * p.1.val
  omega

/-- The two small contractions are the one long one, in ℝ. -/
theorem factor_sum_real (x : Fin 4096 → ℝ) (h : Fin 4096 → Fin 4096 → ℝ)
    (kron : ∀ a b c d : Fin 64, h (pos a b) (pos c d) = 64 * h (low a) (low c) * h (low b) (low d)) (j1 j2 : Fin 64) :
    ∑ i1 : Fin 64, (∑ i2 : Fin 64, x (pos i1 i2) * (8 * h (low i2) (low j2))) * (8 * h (low i1) (low j1))
      = ∑ k : Fin 4096, x k * h k (pos j1 j2) := by
  rw [sum_pos]
  refine Finset.sum_congr rfl fun i1 _ => ?_
  rw [Finset.sum_mul]
  refine Finset.sum_congr rfl fun i2 _ => ?_
  rw [kron]; ring

/-- The two small contractions are the one long one, on the extended reals, when every entry is finite and the
    matrix is the Kronecker square of its corner. -/
theorem factor_sum (X : Fin 4096 → EReal) (H : Fin 4096 → Fin 4096 → EReal)
    (hX : ∀ k, ∃ r : ℝ, X k = r) (hH : ∀ k n, ∃ r : ℝ, H k n = r)
    (kron : ∀ a b c d : Fin 64,
      H (pos a b) (pos c d) = ((64 : ℝ) : EReal) * H (low a) (low c) * H (low b) (low d)) (j1 j2 : Fin 64) :
    ∑ i1 : Fin 64, (∑ i2 : Fin 64, X (pos i1 i2) * (((8 : ℝ) : EReal) * H (low i2) (low j2)))
        * (((8 : ℝ) : EReal) * H (low i1) (low j1))
      = ∑ k : Fin 4096, X k * H k (pos j1 j2) := by
  choose x hx using hX
  choose h hh using hH
  have kr : ∀ a b c d : Fin 64, h (pos a b) (pos c d) = 64 * h (low a) (low c) * h (low b) (low d) := by
    intro a b c d
    have e := kron a b c d
    rw [hh, hh, hh, ← EReal.coe_mul, ← EReal.coe_mul] at e
    exact EReal.coe_eq_coe_iff.mp e
  have key := congrArg (fun r : ℝ => (r : EReal)) (factor_sum_real x h kr j1 j2)
  simp only [coe_sum, EReal.coe_mul] at key
  simp only [hx, hh]
  exact key

end Cert.Hadamard

end
-- ==== Proof.PreDecode.lean ====
/-
  The precondition, read back at the extended reals.

  The precondition is a conjunction of four `all`s over arrays of truth values: every entry of X finite, every entry
  of H finite, the 64 × 64 corner of H equal to 2⁻⁶ · (−1)^popcount(i ∧ j), and
      H[64a + b, 64c + d] = 64 · H[a, c] · H[b, d]   for all a, b, c, d < 64.
  The proof of the kernel's value uses the first, the second and the fourth: an `all` that is true is true at every index;
  "|x| < +∞" says x is a real; an equality test that is true is an equality; and the reshape of H to
  [64, 64, 64, 64] at (a, b, c, d), the corner broadcast along axes (0, 2) and along axes (1, 3), read at that index, are
  H[64a + b, 64c + d], H[a, c] and H[b, d].
-/
import proofs.«120274_j36240934044416_2_alg».proof.Pre_finite_inputs
import proofs.«120274_j36240934044416_2_alg».proof.Proof.Spec
import Idealize.ShloMosaic.Lib.ReduceAll
import Idealize.ShloMosaic.Lib.Pipeline.Value
import Idealize.ShloMosaic.Lib.ValueIdx
import Idealize.ShloMosaic.PureOps.Ideal.Laws

noncomputable section

namespace Cert.Hadamard.PreDecode

open Idealize.ShloMosaic Idealize.ShloMosaic.ValueIdx Cert.Pre_finite_inputs Cert.Hadamard

variable [Cert.Pre_finite_inputs.Facts]
open Cert.Pre_finite_inputs.Facts

/-- A rank-0 shape has one index. -/
instance : Subsingleton S_.Idx := ⟨fun _ _ => funext fun d => d.elim0⟩

/-- "|x| < +∞" true: x is a real. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- An equality test that came out true. -/
theorem eq_of_cmp_oeq (x y : EReal) (h : Ideal.cmp .oeq x y = 1#1) : x = y := by
  unfold Ideal.cmp at h
  by_contra hne
  simp [hne] at h

/-- H reshaped to [64, 64, 64, 64], at (a, b, c, d), is H[64a + b, 64c + d]. -/
theorem reshape_apply (H : S4096x4096.Idx → EReal) (h : S4096x4096.ShapeCasts S64x64x64x64) (a b c d : Fin 64) :
    shapeCast S64x64x64x64 H h (ix4 a b c d) = H (ix2 (pos a b) (pos c d)) := by
  refine shapeCast_apply H h (ix4 a b c d) (ix2 (pos a b) (pos c d)) ?_
  rw [Shape.rowMajor_val_two, Shape.rowMajor_val_four]
  show (64 * a.val + b.val) * 4096 + (64 * c.val + d.val) = ((a.val * 64 + b.val) * 64 + c.val) * 64 + d.val
  omega

/-- The corner of H at (a, c) is H[a, c]. -/
theorem corner_apply (H : S4096x4096.Idx → EReal) (h : S4096x4096.Slices ![0, 0] S64x64) (a c : Fin 64) :
    extractStridedSlice S64x64 ![0, 0] H h (ix2 a c) = H (ix2 (low a) (low c)) := by
  refine extractStridedSlice_apply ![0, 0] H h (ix2 a c) (ix2 (low a) (low c)) fun e => ?_
  match e with
  | ⟨0, _⟩ => show a.val = 0 + a.val; omega
  | ⟨1, _⟩ => show c.val = 0 + c.val; omega

/-- The corner broadcast along axes (0, 2), at (a, b, c, d), is the corner at (a, c). -/
theorem bcast02_apply (x : S64x64.Idx → EReal) (h : S64x64.BroadcastsInDim S64x64x64x64 (![0, 2] : Fin 2 → Fin S64x64x64x64.rank))
    (a b c d : Fin 64) : broadcastInDim S64x64x64x64 ![0, 2] h x (ix4 a b c d) = x (ix2 a c) := by
  refine broadcastInDim_apply ![0, 2] h x (ix4 a b c d) (ix2 a c) fun e => ?_
  match e with
  | ⟨0, _⟩ => rfl
  | ⟨1, _⟩ => rfl

/-- The corner broadcast along axes (1, 3), at (a, b, c, d), is the corner at (b, d). -/
theorem bcast13_apply (x : S64x64.Idx → EReal) (h : S64x64.BroadcastsInDim S64x64x64x64 (![1, 3] : Fin 2 → Fin S64x64x64x64.rank))
    (a b c d : Fin 64) : broadcastInDim S64x64x64x64 ![1, 3] h x (ix4 a b c d) = x (ix2 b d) := by
  refine broadcastInDim_apply ![1, 3] h x (ix4 a b c d) (ix2 b d) fun e => ?_
  match e with
  | ⟨0, _⟩ => rfl
  | ⟨1, _⟩ => rfl

/-- THE PRECONDITION DECODED: every entry of X and of H is a real, and H is the Kronecker square of its corner. -/
theorem decode (X : FVec Ideal S8192x4096 .f32) (H : FVec Ideal S4096x4096 .f32)
    (e : fn (F := Ideal) X H = fun _ => 1#1) :
    (∀ i, ∃ r : ℝ, (X i : EReal) = r) ∧ (∀ i, ∃ r : ℝ, (H i : EReal) = r) ∧
    (∀ a b c d : Fin 64, (H (ix2 (pos a b) (pos c d)) : EReal)
        = ((64 : ℝ) : EReal) * H (ix2 (low a) (low c)) * H (ix2 (low b) (low d))) := by
  have e0 := congrFun e ix0
  unfold fn fn_part1 at e0
  dsimp only at e0
  change IntOp.andi (IntOp.andi (IntOp.andi _ _) _) _ = 1#1 at e0
  rw [IntOp.andi_eq_one, IntOp.andi_eq_one, IntOp.andi_eq_one] at e0
  obtain ⟨⟨⟨hX, hH⟩, -⟩, hK⟩ := e0
  refine ⟨fun i => ?_, fun i => ?_, fun a b c d => ?_⟩
  · exact real_of_abs_lt_top _ (Host.reduce_andi_all _ _ _ _ _ hX i)
  · exact real_of_abs_lt_top _ (Host.reduce_andi_all _ _ _ _ _ hH i)
  · have hk := Host.reduce_andi_all _ _ _ _ _ hK (ix4 a b c d)
    have hk' : shapeCast S64x64x64x64 H shapeCasts_S4096x4096_S64x64x64x64 (ix4 a b c d)
        = Ideal.ofBits .f32 0x42800000#32
            * broadcastInDim S64x64x64x64 ![0, 2] bcast_S64x64_S64x64x64x64_0_2
                (extractStridedSlice S64x64 ![0, 0] H slices_S4096x4096_S64x64_0_0) (ix4 a b c d)
            * broadcastInDim S64x64x64x64 ![1, 3] bcast_S64x64_S64x64x64x64_1_3
                (extractStridedSlice S64x64 ![0, 0] H slices_S4096x4096_S64x64_0_0) (ix4 a b c d) :=
      eq_of_cmp_oeq _ _ hk
    rw [reshape_apply, bcast02_apply, bcast13_apply, corner_apply, corner_apply, ofBits_sixtyfour] at hk'
    exact hk'

end Cert.Hadamard.PreDecode

end
-- ==== Proof.Dense.lean ====
/-
  The specification: the dense product. Row b of the result, at position n, is ∑ₖ X[b, k] · H[k, n] over the 4096
  positions k, on the extended reals.
-/
import Idealize.ShloMosaic.PureOps.Ideal
import Idealize.ShloMosaic.Lib.ValueIdx

noncomputable section

namespace Cert.Hadamard

open Idealize.ShloMosaic Idealize.ShloMosaic.ValueIdx

/-- X · H, index by index. -/
def dense (X : (⟨2, ![8192, 4096]⟩ : Shape).Idx → EReal) (H : (⟨2, ![4096, 4096]⟩ : Shape).Idx → EReal) :
    (⟨2, ![8192, 4096]⟩ : Shape).Idx → EReal :=
  fun i => ∑ k : Fin 4096, X (ix2 ⟨(i 0).val, (i 0).isLt⟩ k) * H (ix2 k ⟨(i 1).val, (i 1).isLt⟩)

/-- At (b, n): the sum over k of X[b, k] · H[k, n]. -/
theorem dense_apply (X : (⟨2, ![8192, 4096]⟩ : Shape).Idx → EReal) (H : (⟨2, ![4096, 4096]⟩ : Shape).Idx → EReal)
    (b : Fin 8192) (n : Fin 4096) : dense X H (ix2 b n) = ∑ k : Fin 4096, X (ix2 b k) * H (ix2 k n) := rfl

end Cert.Hadamard

end
-- ==== Proof.RefValue.lean ====
/-
  The reference computes the dense product: its one operation is a `dot_general` contracting the 4096 positions,
  which on the extended reals is the plain sum ∑ₖ X[b, k] · H[k, n].
-/
import proofs.«120274_j36240934044416_2_alg».proof.Proof.Gen.ReferenceIdeal.Read
import proofs.«120274_j36240934044416_2_alg».proof.Proof.Dense

noncomputable section

namespace Cert.ReferenceIdeal.DenseValue

open Idealize.ShloMosaic Idealize.ShloMosaic.ValueIdx Cert.ReferenceIdeal Cert.ReferenceIdeal.Read Cert.Hadamard

/-- The reference's result is the dense product of its arguments. -/
theorem result_eq (X : (⟨S8192x4096, .f32⟩ : BufTy).Contents (Elt Ideal)) (H : (⟨S4096x4096, .f32⟩ : BufTy).Contents (Elt Ideal)) :
    val_main_v0 (F := Ideal) X H = dense X H := by
  funext i
  rw [val_main_v0_apply]
  unfold dense
  refine Finset.sum_congr rfl fun k _ => ?_
  have el : lidx_main_v0 i k = ix2 ⟨(i 0).val, (i 0).isLt⟩ k := funext fun a => by
    match a with
    | ⟨0, _⟩ => rfl
    | ⟨1, _⟩ => rfl
  have er : ridx_main_v0 i k = ix2 k ⟨(i 1).val, (i 1).isLt⟩ := funext fun a => by
    match a with
    | ⟨0, _⟩ => rfl
    | ⟨1, _⟩ => rfl
  rw [el, er]
  rfl

end Cert.ReferenceIdeal.DenseValue

end
-- ==== Proof.Payload.lean ====
/-
  What the kernel's body stores, at an index.

  The body applies ONE stage twice. A stage takes a [128, 64, 64] block y and the 64 × 64 matrix h, flattens y to
  [8192, 64] (row 64 r + q holds y[r, q, ·]), multiplies by h, folds the product back to [128, 64, 64] and swaps the
  last two axes:
      stage h y [r, p, q] = ∑ₖ y[r, q, k] · h[k, p].
  (A change of float format is the identity on the extended reals; a matrix product into a zero accumulator is the plain
  sum over the contracted index.) The stored value is stage h (stage h x):
      stored[r, j₁, j₂] = ∑ᵢ₁ (∑ᵢ₂ x[r, i₁, i₂] · h[i₂, j₂]) · h[i₁, j₁].
-/
import proofs.«120274_j36240934044416_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The record of the body's matrix product: [8192, 64] by [64, 64], contracting the 64. -/
abbrev D := dot_S8192x64_S64x64_S8192x64_1_0_0_1_n_n

theorem lhs0 (i : S8192x64.Idx) (q : D.contr.Idx) : (D.lhsIdx i q 0).val = (i 0).val := by
  unfold DotDims.lhsIdx
  rw [dif_neg (show ¬(0 : Fin S8192x64.rank) ∈ D.lhsBatch by decide), dif_pos (show (0 : Fin S8192x64.rank) ∈ D.lhsNonContracting by decide)]
  rfl
theorem lhs1 (i : S8192x64.Idx) (q : D.contr.Idx) : (D.lhsIdx i q 1).val = (q ⟨0, by decide⟩).val :=
  D.lhsIdx_val_of_single rfl i q
theorem rhs0 (i : S8192x64.Idx) (q : D.contr.Idx) : (D.rhsIdx i q 0).val = (q ⟨0, by decide⟩).val :=
  D.rhsIdx_val_of_single rfl i q
theorem rhs1 (i : S8192x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- The matrix product into a zero accumulator, at (ρ, p): the sum over k of lhs[ρ, k] · rhs[k, p]. -/
theorem mm_apply (lhs : FVec Ideal S8192x64 .bf16) (rhs : FVec Ideal S64x64 .bf16) (ρ : Fin 8192) (p : Fin 64) :
    matmul D none lhs rhs (constant S8192x64 .f32 0x00000000#32) (ix2 ρ p)
      = ∑ k : Fin 64, lhs (ix2 ρ k) * rhs (ix2 k p) := by
  simp only [matmul]
  rw [Ideal.matmul_constant_zero_apply, ← Equiv.sum_comp (ValueIdx.contrEquiv1 D 64 rfl rfl).symm]
  refine Finset.sum_congr rfl fun k _ => ?_
  have hk := ValueIdx.contrEquiv1_symm_val D 64 rfl rfl k
  have el : D.lhsIdx (ix2 ρ p) ((ValueIdx.contrEquiv1 D 64 rfl rfl).symm k) = ix2 ρ k := funext fun a => Fin.ext (by
    match a with
    | ⟨0, _⟩ => exact lhs0 _ _
    | ⟨1, _⟩ => exact (lhs1 _ _).trans hk)
  have er : D.rhsIdx (ix2 ρ p) ((ValueIdx.contrEquiv1 D 64 rfl rfl).symm k) = ix2 k p := funext fun a => Fin.ext (by
    match a with
    | ⟨0, _⟩ => exact (rhs0 _ _).trans hk
    | ⟨1, _⟩ => exact rhs1 _ _)
  rw [el, er]

/-- Row 64 r + q of the flattened block. -/
def row (r : Fin 128) (q : Fin 64) : Fin 8192 := ⟨r.val * 64 + q.val, by omega⟩

/-- The flattening [128, 64, 64] → [8192, 64] at (64 r + q, k) is the block at (r, q, k). -/
theorem flatten_apply {α : Type} (y : S128x64x64.Idx → α) (h : S128x64x64.ShapeCasts S8192x64) (r : Fin 128) (q k : Fin 64) :
    shapeCast S8192x64 y h (ix2 (row r q) k) = y (ix3 r q k) := by
  refine shapeCast_apply y h (ix2 (row r q) k) (ix3 r q k) ?_
  rw [Shape.rowMajor_val_three, Shape.rowMajor_val_two]
  show (r.val * 64 + q.val) * 64 + k.val = (r.val * 64 + q.val) * 64 + k.val
  rfl

/-- The folding back [8192, 64] → [128, 64, 64] at (r, q, p) is the matrix at (64 r + q, p). -/
theorem fold_apply {α : Type} (z : S8192x64.Idx → α) (h : S8192x64.ShapeCasts S128x64x64) (r : Fin 128) (q p : Fin 64) :
    shapeCast S128x64x64 z h (ix3 r q p) = z (ix2 (row r q) p) := by
  refine shapeCast_apply z h (ix3 r q p) (ix2 (row r q) p) ?_
  rw [Shape.rowMajor_val_three, Shape.rowMajor_val_two]
  show (r.val * 64 + q.val) * 64 + p.val = (r.val * 64 + q.val) * 64 + p.val
  rfl

/-- The swap of the last two axes at (r, p, q) is the operand at (r, q, p). -/
theorem swap_apply {α : Type} (y : S128x64x64.Idx → α) (h : S128x64x64.Transposes [0, 2, 1] S128x64x64) (r : Fin 128) (p q : Fin 64) :
    transpose S128x64x64 [0, 2, 1] y h (ix3 r p q) = y (ix3 r q p) := by
  refine transpose_apply [0, 2, 1] y h (ix3 r p q) (ix3 r q p) fun b => ?_
  match b with
  | ⟨0, _⟩ => rfl
  | ⟨1, _⟩ => rfl
  | ⟨2, _⟩ => rfl

/-- One stage of the body: flatten, multiply by h, fold back, swap the last two axes. -/
def stage (h : FVec Ideal S64x64 .bf16) (y : FVec Ideal S128x64x64 .f32) : FVec Ideal S128x64x64 .f32 :=
  transpose S128x64x64 [0, 2, 1]
    (shapeCast S128x64x64
      (matmul D none (shapeCast S8192x64 (truncf .bf16 y bitsLt_bf16_f32) shapeCasts_S128x64x64_S8192x64) h
        (constant S8192x64 .f32 0x00000000#32))
      shapeCasts_S8192x64_S128x64x64)
    transposes_S128x64x64_p0_2_1_S128x64x64

/-- A stage at (r, p, q): the sum over k of y[r, q, k] · h[k, p]. -/
theorem stage_apply (h : FVec Ideal S64x64 .bf16) (y : FVec Ideal S128x64x64 .f32) (r : Fin 128) (p q : Fin 64) :
    stage h y (ix3 r p q) = ∑ k : Fin 64, (y (ix3 r q k) : EReal) * h (ix2 k p) := by
  unfold stage
  rw [swap_apply, fold_apply, mm_apply]
  refine Finset.sum_congr rfl fun k _ => ?_
  rw [flatten_apply]
  rfl

/-- The body's stored value is two stages. -/
theorem pay_eq (h0 : Vec Ideal S64x64 .bf16) (x : Vec Ideal S128x64x64 .f32) :
    k0_pay1 (F := Ideal) h0 x = stage h0 (stage h0 x) := by
  unfold k0_pay1 stage
  simp only [shapeCast_self]

/-- THE STORED VALUE at (r, j₁, j₂). -/
theorem pay_apply (h0 : Vec Ideal S64x64 .bf16) (x : Vec Ideal S128x64x64 .f32) (r : Fin 128) (j1 j2 : Fin 64) :
    k0_pay1 (F := Ideal) h0 x (ix3 r j1 j2)
      = ∑ i1 : Fin 64, (∑ i2 : Fin 64, (x (ix3 r i1 i2) : EReal) * h0 (ix2 i2 j2)) * h0 (ix2 i1 j1) := by
  rw [pay_eq, stage_apply]
  refine Finset.sum_congr rfl fun i1 _ => ?_
  rw [stage_apply]

end Cert.KernelIdeal.Body

end
-- ==== Proof.Blocks.lean ====
/-
  From blocks to the array: what the kernel's output array holds after the run.

  The grid has 64 points; point t fetches rows 128 t … 128 t + 127 of the [8192, 64, 64] input (all of its last two
  axes), fetches the whole 64 × 64 matrix, and writes back rows 128 t … 128 t + 127 of the output. What it writes is the
  body's stored value of the fetched blocks, so the output array ends holding ONE function of the two arrays the
  region finds:
      twoStage x h [b, j₁, j₂] = ∑ᵢ₁ (∑ᵢ₂ x[b, i₁, i₂] · h[i₂, j₂]) · h[i₁, j₁],
  every row b being covered by point b / 128.
-/
import proofs.«120274_j36240934044416_2_alg».proof.Proof.Gen.KernelIdeal.Frame
import proofs.«120274_j36240934044416_2_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The two contractions at row b and output position (j₁, j₂). -/
def twoStageAt (x : S8192x64x64.Idx → EReal) (h : S64x64.Idx → EReal) (b : Fin 8192) (j1 j2 : Fin 64) : EReal :=
  ∑ i1 : Fin 64, (∑ i2 : Fin 64, x (ix3 b i1 i2) * h (ix2 i2 j2)) * h (ix2 i1 j1)

/-- The same as one function of the output array's index. -/
def twoStage (x : S8192x64x64.Idx → EReal) (h : S64x64.Idx → EReal) : S8192x64x64.Idx → EReal :=
  fun i => twoStageAt x h ⟨(i 0).val, (i 0).isLt⟩ ⟨(i 1).val, (i 1).isLt⟩ ⟨(i 2).val, (i 2).isLt⟩

/-- The printed index maps over the grid: point t is at block t of the rows for the input and the output, at block 0
    on every other axis. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The input block at point t is rows 128 t … 128 t + 127 of the input array. -/
theorem xblk_apply (c : Dev nD) (t : Fin cfg0.N) (x : S128x64x64.Idx) (k : S8192x64x64.Idx)
    (hk0 : (k 0).val = 128 * t.val + (x 0).val) (hk1 : (k 1).val = (x 1).val) (hk2 : (k 2).val = (x 2).val) :
    (iblk m c 0 t : Vec Ideal S128x64x64 .f32) x = (V m c main_v4 : S8192x64x64.Idx → Elt Ideal .f32) k := by
  obtain ⟨e0, e1, e2, -⟩ := idx_facts t
  unfold iblk
  rw [View.read_apply]
  show V m c main_v4 _ = V m c main_v4 _
  refine congrArg (V m c main_v4) ?_
  funext a
  apply Fin.ext
  match a with
  | ⟨0, _⟩ => show win0_0.index t 0 * 128 + 1 * (x 0).val = (k 0).val; rw [e0, hk0]; omega
  | ⟨1, _⟩ => show win0_0.index t 1 * 64 + 1 * (x 1).val = (k 1).val; rw [e1, hk1]; omega
  | ⟨2, _⟩ => show win0_0.index t 2 * 64 + 1 * (x 2).val = (k 2).val; rw [e2, hk2]; omega

/-- The matrix block at every point is the whole matrix. -/
theorem hblk_apply (c : Dev nD) (t : Fin cfg0.N) (x k : S64x64.Idx)
    (hk0 : (k 0).val = (x 0).val) (hk1 : (k 1).val = (x 1).val) :
    (iblk m c 1 t : Vec Ideal S64x64 .bf16) x = (V m c main_v3 : S64x64.Idx → Elt Ideal .bf16) k := by
  obtain ⟨-, -, -, e3, e4, -⟩ := idx_facts t
  unfold iblk
  rw [View.read_apply]
  show V m c main_v3 _ = V m c main_v3 _
  refine congrArg (V m c main_v3) ?_
  funext a
  apply Fin.ext
  match a with
  | ⟨0, _⟩ => show win0_1.index t 0 * 64 + 1 * (x 0).val = (k 0).val; rw [e3, hk0]; omega
  | ⟨1, _⟩ => show win0_1.index t 1 * 64 + 1 * (x 1).val = (k 1).val; rw [e4, hk1]; omega

/-- WHAT POINT t WRITES BACK is block t of `twoStage` of the arrays the region finds. -/
theorem flushed_eq (c : Dev nD) (t : Fin cfg0.N) :
    (dats m 0 c).flushed 2 t
      = ((cfg0.win 2).blk t).view.read (Elt Ideal) (twoStage (V m c main_v4) (V m c main_v3)) := by
  show (cfg0.win 2).cut (grid0.coords t) ((dats m 0 c).after 2 t) = _
  rw [after0_2]
  unfold out0_2
  rw [View.canon_unit_zero hz3]
  simp only [View.ld_unit_zero (S := S128x64x64) hz3, View.ld_unit_zero (S := S64x64) hz2]
  obtain ⟨-, -, -, -, -, e5, e6, e7⟩ := idx_facts t
  funext j
  have h0 : (j 0).val < 128 := (j 0).isLt
  have h1 : (j 1).val < 64 := (j 1).isLt
  have h2 : (j 2).val < 64 := (j 2).isLt
  show k0_pay1 (F := Ideal) (iblk m c 1 t) (iblk m c 0 t) j
      = twoStage (V m c main_v4) (V m c main_v3) (((cfg0.win 2).blk t).view.emb j)
  have hj : (j : S128x64x64.Idx) = ix3 ⟨(j 0).val, h0⟩ ⟨(j 1).val, h1⟩ ⟨(j 2).val, h2⟩ := by
    funext a
    match a with
    | ⟨0, _⟩ => rfl
    | ⟨1, _⟩ => rfl
    | ⟨2, _⟩ => rfl
  refine (congrArg (k0_pay1 (F := Ideal) (iblk m c 1 t) (iblk m c 0 t)) hj).trans ?_
  refine (pay_apply (iblk m c 1 t) (iblk m c 0 t) _ _ _).trans ?_
  unfold twoStage twoStageAt
  refine Finset.sum_congr rfl fun i1 _ => ?_
  refine congrArg₂ (· * ·) (Finset.sum_congr rfl fun i2 _ => congrArg₂ (· * ·) ?_ ?_) ?_
  · exact xblk_apply m c t _ _
      (by show win0_2.index t 0 * 128 + 1 * (j 0).val = 128 * t.val + (j 0).val; rw [e5]; omega) rfl rfl
  · exact hblk_apply m c t _ _ rfl
      (by show win0_2.index t 2 * 64 + 1 * (j 2).val = (j 2).val; rw [e7]; omega)
  · exact hblk_apply m c t _ _ rfl
      (by show win0_2.index t 1 * 64 + 1 * (j 1).val = (j 1).val; rw [e6]; omega)

/-- An index of the output array is in point t's block iff each coordinate is in the block's range on its axis. -/
theorem mem_blk (t : Fin cfg0.N) (i : S8192x64x64.Idx) :
    i ∈ ((cfg0.win 2).blk t).view.set ↔ ∀ a : Fin 3, win0_2.index t a * S128x64x64.size a ≤ (i a).val
      ∧ (i a).val < win0_2.index t a * S128x64x64.size a + S128x64x64.size a := by
  show i ∈ ((View.whole main_v5).slice (win0_2.rect t)).set ↔ _
  rw [View.set_slice_whole, Rect.mem_set_unit]
  exact Iff.rfl

/-- Every row b of the output is written back by point b / 128. -/
theorem cover (i : S8192x64x64.Idx) :
    ∃ t : Fin cfg0.N, (cfg0.win 2).flush t = true ∧ i ∈ ((cfg0.win 2).blk t).view.set := by
  have hN : cfg0.N = 64 := N_0
  have hi0 : (i 0).val < 8192 := (i 0).isLt
  have hi1 : (i 1).val < 64 := (i 1).isLt
  have hi2 : (i 2).val < 64 := (i 2).isLt
  have ht : (i 0).val / 128 < cfg0.N := by rw [hN]; omega
  refine ⟨⟨(i 0).val / 128, ht⟩, flush0_2 _, ?_⟩
  rw [mem_blk]
  obtain ⟨-, -, -, -, -, e5, e6, e7⟩ := idx_facts ⟨(i 0).val / 128, ht⟩
  intro a
  match a with
  | ⟨0, _⟩ =>
    show win0_2.index ⟨(i 0).val / 128, ht⟩ 0 * 128 ≤ (i 0).val ∧ (i 0).val < win0_2.index ⟨(i 0).val / 128, ht⟩ 0 * 128 + 128
    rw [e5]; show (i 0).val / 128 * 128 ≤ (i 0).val ∧ (i 0).val < (i 0).val / 128 * 128 + 128; omega
  | ⟨1, _⟩ =>
    show win0_2.index ⟨(i 0).val / 128, ht⟩ 1 * 64 ≤ (i 1).val ∧ (i 1).val < win0_2.index ⟨(i 0).val / 128, ht⟩ 1 * 64 + 64
    rw [e6]; omega
  | ⟨2, _⟩ =>
    show win0_2.index ⟨(i 0).val / 128, ht⟩ 2 * 64 ≤ (i 2).val ∧ (i 2).val < win0_2.index ⟨(i 0).val / 128, ht⟩ 2 * 64 + 64
    rw [e7]; omega

/-- THE OUTPUT ARRAY after the run: `twoStage` of the two arrays the region finds. -/
theorem final (c : Dev nD) : (dats m 0 c).arrAt 2 cfg0.N = twoStage (V m c main_v4) (V m c main_v3) :=
  (dats m 0 c).arrAt_eq_of_cover 2 (twoStage (V m c main_v4) (V m c main_v3)) (fun t _ => flushed_eq m c t) cover

end Cert.KernelIdeal.Blocks

end
-- ==== Proof.KernelRun.lean ====
/-
  The kernel's program, read end to end.

  Before the region the host takes the 64 × 64 corner of H, multiplies it by 8 and changes its format (the identity on
  the extended reals), and reshapes X to [8192, 64, 64] (row b holds X[b, 64 i₁ + i₂] at (i₁, i₂)); after the region it
  reshapes the output back to [8192, 4096] (position 64 j₁ + j₂ of row b is the output at (b, j₁, j₂)). So the result at
  (b, 64 j₁ + j₂) is
      ∑ᵢ₁ (∑ᵢ₂ X[b, 64 i₁ + i₂] · (8 · H[i₂, j₂])) · (8 · H[i₁, j₁]).
-/
import proofs.«120274_j36240934044416_2_alg».proof.Proof.Blocks
import proofs.«120274_j36240934044416_2_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Body Cert.KernelIdeal.Blocks Idealize.ShloMosaic.ValueIdx
open Cert.Hadamard

variable (m : (ℓ : Loc nD τ sig) → Buf (Elt Ideal) ℓ) (ρ : Dev nD → PrngReg)

/-- The input array the region finds is X reshaped. -/
theorem V_main_v4 (c : Dev nD) : (V m c main_v4 : S8192x64x64.Idx → EReal)
    = shapeCast S8192x64x64 (m ((c : Thread nD τ).loc main_arg0)) shapeCasts_S8192x4096_S8192x64x64 := by
  show StableHlo.after hostOps0 (fun b => m (c, b)) (Proc.devRef .tc main_v4) = _
  after_results
  rfl

/-- The matrix the region finds is 8 times the corner of H. -/
theorem V_main_v3 (c : Dev nD) : (V m c main_v3 : S64x64.Idx → EReal)
    = truncf .bf16 (mulf (broadcastInDim S64x64 ![] bcast_S_S64x64 (constant (F := Ideal) S_ .f32 0x41000000#32))
        (extractStridedSlice S64x64 ![0, 0] (m ((c : Thread nD τ).loc main_arg1)) slices_S4096x4096_S64x64_0_0)) bitsLt_bf16_f32 := by
  show StableHlo.after hostOps0 (fun b => m (c, b)) (Proc.devRef .tc main_v3) = _
  after_results

/-- The kernel's result, as a function of its two arguments. -/
def result (X : S8192x4096.Idx → EReal) (H : S4096x4096.Idx → EReal) : S8192x4096.Idx → EReal :=
  shapeCast S8192x4096
    (twoStage (shapeCast S8192x64x64 X shapeCasts_S8192x4096_S8192x64x64)
      (truncf .bf16 (mulf (broadcastInDim S64x64 ![] bcast_S_S64x64 (constant (F := Ideal) S_ .f32 0x41000000#32))
        (extractStridedSlice S64x64 ![0, 0] H slices_S4096x4096_S64x64_0_0)) bitsLt_bf16_f32))
    shapeCasts_S8192x64x64_S8192x4096

/-- What the host operation after the region leaves in the result buffer. -/
theorem tail_v6 (c : Dev nD) : Pipeline.afterTail₀ cfgs (dats m) 0 (V0 m) [hostOps1] c main_v6
    = result (m ((c : Thread nD τ).loc main_arg0)) (m ((c : Thread nD τ).loc main_arg1)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v5)
      = twoStage (V m c main_v4) (V m c main_v3) :=
    (Pipeline.withArrays_arr spec0 launch0.win.arr_inj c _ _ 2).trans (final m c)
  rw [hw, V_main_v4, V_main_v3]
  rfl

/-- THE RUN, READ: every weakly fair execution of the kernel's program terminates with the result buffer at `result` of the
    two arguments, and the arguments unchanged. -/
theorem run : θ_run defs (onTc (τ := τ) (main (F := Ideal))) ⟨m, fun _ => 0, ρ⟩ fun r => ∀ c : Dev nD,
      r.2.mem ((c : Thread nD τ).loc main_v6) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v6 (Pipeline.mem_restRefs_of main_v6 (by decide) (by decide))).trans (tail_v6 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.Bridge.lean ====
/-
  The kernel's function is the dense product, when every entry is finite and H is the Kronecker square of its corner.

  At (b, 64 j₁ + j₂) the kernel's result is ∑ᵢ₁ (∑ᵢ₂ X[b, 64 i₁ + i₂] · (8 H[i₂, j₂])) · (8 H[i₁, j₁]) — the reshapes
  read at an index, the corner read at an index — and the dense product is ∑ₖ X[b, k] · H[k, 64 j₁ + j₂]: the two
  are equal by the factorisation of the long contraction into the two small ones.
-/
import proofs.«120274_j36240934044416_2_alg».proof.Proof.KernelRun
import proofs.«120274_j36240934044416_2_alg».proof.Proof.Dense

noncomputable section

namespace Cert.KernelIdeal.Bridge

open Idealize.ShloMosaic Idealize.ShloMosaic.ValueIdx
open Cert.KernelIdeal Cert.KernelIdeal.Gen Cert.KernelIdeal.Blocks Cert.KernelIdeal.Whole Cert.Hadamard

/-- The output reshaped to [8192, 4096], at (b, 64 j₁ + j₂), is the output at (b, j₁, j₂). -/
theorem unflatten_apply {α : Type} (y : S8192x64x64.Idx → α) (h : S8192x64x64.ShapeCasts S8192x4096) (b : Fin 8192) (j1 j2 : Fin 64) :
    shapeCast S8192x4096 y h (ix2 b (pos j1 j2)) = y (ix3 b j1 j2) := by
  refine shapeCast_apply y h (ix2 b (pos j1 j2)) (ix3 b j1 j2) ?_
  rw [Shape.rowMajor_val_three, Shape.rowMajor_val_two]
  show (b.val * 64 + j1.val) * 64 + j2.val = b.val * 4096 + (64 * j1.val + j2.val)
  omega

/-- X reshaped to [8192, 64, 64], at (b, i₁, i₂), is X[b, 64 i₁ + i₂]. -/
theorem split_apply {α : Type} (X : S8192x4096.Idx → α) (h : S8192x4096.ShapeCasts S8192x64x64) (b : Fin 8192) (i1 i2 : Fin 64) :
    shapeCast S8192x64x64 X h (ix3 b i1 i2) = X (ix2 b (pos i1 i2)) := by
  refine shapeCast_apply X h (ix3 b i1 i2) (ix2 b (pos i1 i2)) ?_
  rw [Shape.rowMajor_val_three, Shape.rowMajor_val_two]
  show b.val * 4096 + (64 * i1.val + i2.val) = (b.val * 64 + i1.val) * 64 + i2.val
  omega

/-- The matrix the region finds, at (p, q), is 8 · H[p, q]. -/
theorem eight_corner_apply (H : S4096x4096.Idx → EReal) (p q : Fin 64) :
    (truncf .bf16 (mulf (broadcastInDim S64x64 ![] bcast_S_S64x64 (constant (F := Ideal) S_ .f32 0x41000000#32))
        (extractStridedSlice S64x64 ![0, 0] H slices_S4096x4096_S64x64_0_0)) bitsLt_bf16_f32 : S64x64.Idx → EReal) (ix2 p q)
      = ((8 : ℝ) : EReal) * H (ix2 (low p) (low q)) := by
  show Ideal.ofBits .f32 0x41000000#32 * extractStridedSlice S64x64 ![0, 0] H slices_S4096x4096_S64x64_0_0 (ix2 p q) = _
  rw [ofBits_eight]
  refine congrArg (((8 : ℝ) : EReal) * ·) ?_
  refine extractStridedSlice_apply ![0, 0] H slices_S4096x4096_S64x64_0_0 (ix2 p q) (ix2 (low p) (low q)) fun e => ?_
  match e with
  | ⟨0, _⟩ => show p.val = 0 + p.val; omega
  | ⟨1, _⟩ => show q.val = 0 + q.val; omega

/-- THE BRIDGE: the kernel's function of (X, H) is the dense product X · H. -/
theorem result_eq_dense (X : S8192x4096.Idx → EReal) (H : S4096x4096.Idx → EReal)
    (hX : ∀ i, ∃ r : ℝ, X i = r) (hH : ∀ i, ∃ r : ℝ, H i = r)
    (kron : ∀ a b c d : Fin 64, H (ix2 (pos a b) (pos c d))
      = ((64 : ℝ) : EReal) * H (ix2 (low a) (low c)) * H (ix2 (low b) (low d))) :
    result X H = dense X H := by
  funext i
  have hi0 : (i 0).val < 8192 := (i 0).isLt
  have hi1 : (i 1).val < 4096 := (i 1).isLt
  obtain ⟨b, j1, j2, rfl⟩ : ∃ (b : Fin 8192) (j1 j2 : Fin 64), i = ix2 b (pos j1 j2) :=
    ⟨⟨(i 0).val, hi0⟩, ⟨(i 1).val / 64, by omega⟩, ⟨(i 1).val % 64, Nat.mod_lt _ (by decide)⟩, by
      funext a
      match a with
      | ⟨0, _⟩ => rfl
      | ⟨1, _⟩ => exact Fin.ext (by show (i 1).val = 64 * ((i 1).val / 64) + (i 1).val % 64; omega)⟩
  rw [dense_apply]
  unfold result
  rw [unflatten_apply]
  show twoStageAt _ _ b j1 j2 = _
  unfold twoStageAt
  refine Eq.trans (Finset.sum_congr rfl fun i1 _ => congrArg₂ (· * ·)
    (Finset.sum_congr rfl fun i2 _ => congrArg₂ (· * ·) (split_apply X _ b i1 i2) (eight_corner_apply H i2 j2))
    (eight_corner_apply H i1 j1)) ?_
  exact factor_sum (fun k => X (ix2 b k)) (fun k n => H (ix2 k n)) (fun k => hX _) (fun k n => hH _) kron j1 j2

end Cert.KernelIdeal.Bridge

end
-- ==== Proof.lean ====
/- A Hadamard transform by Kronecker factors against the dense product, equal on the extended reals.

   The reference multiplies X (8192 rows of 4096 entries) by H, the normalized Sylvester–Hadamard matrix of order 4096.
   The kernel uses that H is the Kronecker square of the normalized order-64 matrix, which is 8 times the 64 × 64
   corner of H: it reads each row of X as a 64 × 64 matrix and contracts its two axes with the small matrix, one after
   the other. The claim holds under the precondition that every entry of X and H is finite and that H is that matrix,
   of which the proof uses H[64a + b, 64c + d] = 64 · H[a, c] · H[b, d]; finiteness is needed because the
   factorisation moves factors across sums.

   The frames of the two kernel programs are the generated frame certificates; the reference's frame is its run with
   the result dropped; the ideal pass rewrote nothing, so `preserves` is trivial. For `algebraic`: the kernel's run ends
   with its result at the two contractions of the arguments (Proof/KernelRun.lean over Proof/Blocks.lean and
   Proof/Payload.lean), the reference's run ends at the dense product (Proof/RefValue.lean), and under the decoded
   precondition (Proof/PreDecode.lean) the first is the second (Proof/Bridge.lean over Proof/Spec.lean). -/
import proofs.«120274_j36240934044416_2_alg».proof.Defs
import proofs.«120274_j36240934044416_2_alg».proof.Proof.Gen.Kernel
import proofs.«120274_j36240934044416_2_alg».proof.Proof.Gen.Kernel.Skeleton
import proofs.«120274_j36240934044416_2_alg».proof.Proof.Gen.Kernel.Launch
import proofs.«120274_j36240934044416_2_alg».proof.Proof.Gen.Kernel.Points
import proofs.«120274_j36240934044416_2_alg».proof.Proof.Gen.Kernel.Frame
import proofs.«120274_j36240934044416_2_alg».proof.Proof.Gen.KernelIdeal
import proofs.«120274_j36240934044416_2_alg».proof.Proof.Gen.KernelIdeal.Skeleton
import proofs.«120274_j36240934044416_2_alg».proof.Proof.Gen.KernelIdeal.Launch
import proofs.«120274_j36240934044416_2_alg».proof.Proof.Gen.KernelIdeal.Points
import proofs.«120274_j36240934044416_2_alg».proof.Proof.Gen.KernelIdeal.Frame
import proofs.«120274_j36240934044416_2_alg».proof.Proof.Gen.ReferenceIdeal
import proofs.«120274_j36240934044416_2_alg».proof.Proof.Gen.Pre_finite_inputs
import proofs.«120274_j36240934044416_2_alg».proof.Proof.Gen.ReferenceIdeal.Run
import proofs.«120274_j36240934044416_2_alg».proof.Proof.Gen.ReferenceIdeal.Read
import proofs.«120274_j36240934044416_2_alg».proof.Proof.PreDecode
import proofs.«120274_j36240934044416_2_alg».proof.Proof.RefValue
import proofs.«120274_j36240934044416_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dense product X · H of the arguments: the kernel because, under the precondition, its
    two small contractions are the long one; the reference because it computes it. -/
theorem algebraic : Cert.algebraic_KernelIdeal_ReferenceIdeal := by
  intro m ρ m' ρ' hpre hagree
  refine ⟨fun c => Cert.Hadamard.dense (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Whole.run m ρ)
    obtain ⟨hX, hH, kron⟩ := Cert.Hadamard.PreDecode.decode _ _ (hpre c)
    exact Cert.KernelIdeal.Bridge.result_eq_dense _ _ hX hH kron
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v0_eq]
    exact Cert.ReferenceIdeal.DenseValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
